-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S64x128 : Shape := ⟨2, ![64, 128]⟩
abbrev S64 : Shape := ⟨1, ![64]⟩
abbrev S64x16 : Shape := ⟨2, ![64, 16]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  main_v18

def fn {F : FTy → Type} [FloatOps F] (main_arg0 : FVec F S262144x128 .f32) (main_arg1 : FVec F S64x128 .f32) (main_arg2 : FVec F S64 .f32) (main_arg3 : FVec F S64x16 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_v13 main_v16
-- ==== Kernel.lean ====
abbrev S262144x128 : Shape := ⟨2, ![262144, 128]⟩
abbrev S64x128 : Shape := ⟨2, ![64, 128]⟩
abbrev S64 : Shape := ⟨1, ![64]⟩
abbrev S64x16 : Shape := ⟨2, ![64, 16]⟩
abbrev S_ : Shape := ⟨0, ![]⟩
abbrev S1x64 : Shape := ⟨2, ![1, 64]⟩
abbrev S262144x16 : Shape := ⟨2, ![262144, 16]⟩
abbrev S16384x128 : Shape := ⟨2, ![16384, 128]⟩
abbrev S16384x16 : Shape := ⟨2, ![16384, 16]⟩
abbrev S16384 : Shape := ⟨1, ![16384]⟩
abbrev S16384x1 : Shape := ⟨2, ![16384, 1]⟩
abbrev S16384x64 : Shape := ⟨2, ![16384, 64]⟩

abbrev nBuf : Space → Nat
  | .hbm => 11
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S64x128, .f32⟩
  | .hbm, ⟨2, _⟩ => ⟨S64, .f32⟩
  | .hbm, ⟨3, _⟩ => ⟨S64x16, .f32⟩
  | .hbm, ⟨4, _⟩ => ⟨S64x128, .f32⟩
  | .hbm, ⟨5, _⟩ => ⟨S_, .f32⟩
  | .hbm, ⟨6, _⟩ => ⟨S64, .f32⟩
  | .hbm, ⟨7, _⟩ => ⟨S1x64, .f32⟩
  | .hbm, ⟨8, _⟩ => ⟨S1x64, .f32⟩
  | .hbm, ⟨9, _⟩ => ⟨S64x16, .f32⟩
  | .hbm, ⟨10, _⟩ => ⟨S262144x16, .f32⟩
  | .local _ .vmem, ⟨0, _⟩ => ⟨S16384x128, .f32⟩
  | .local _ .vmem, ⟨1, _⟩ => ⟨S16384x128, .f32⟩
  | .local _ .vmem, ⟨2, _⟩ => ⟨S64x128, .f32⟩
  | .local _ .vmem, ⟨3, _⟩ => ⟨S1x64, .f32⟩
  | .local _ .vmem, ⟨4, _⟩ => ⟨S1x64, .f32⟩
  | .local _ .vmem, ⟨5, _⟩ => ⟨S64x16, .f32⟩
  | .local _ .vmem, ⟨6, _⟩ => ⟨S16384x16, .f32⟩
  | .local _ .vmem, ⟨7, _⟩ => ⟨S16384x16, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S64x128_S64_d1 : S64x128.ReducesTo [1] S64
  h_S_ : 0 < S_.numel
  shapeCasts_S64_S1x64 : S64.ShapeCasts S1x64
  inb_S16384x128_S16384x128_0_0 : ∀ a, (![0, 0] : Fin 2 → Nat) a + S16384x128.size a ≤ S16384x128.size a
  h_S16384x128 : 0 < S16384x128.numel
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  reduces_S16384x128_S16384 : S16384x128.Reduces [1] S16384
  shapeCasts_S16384_S16384x1 : S16384.ShapeCasts S16384x1
  broadcasts_S16384x1_S16384x64 : S16384x1.Broadcasts S16384x64
  broadcasts_S1x64_S16384x64 : S1x64.Broadcasts S16384x64
  inb_S16384x16_S16384x16_0_0 : ∀ a, (![0, 0] : Fin 2 → Nat) a + S16384x16.size a ≤ S16384x16.size a
  h_S16384x16 : 0 < S16384x16.numel
  dot_S16384x128_S64x128_S16384x64_1_1_0_0_n_n_wf : DotDims.WF S16384x128 S64x128 S16384x64 [1] [1] [0] [0] [] []
  dot_S16384x64_S64x16_S16384x16_1_0_0_1_n_n_wf : DotDims.WF S16384x64 S64x16 S16384x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16384x16.size a ≤ S262144x16.size a
  hwx0_5 : ∀ i : grid0.Coords, EltTy.bits .f32 = 32 ∨ (Rect.block (s := S262144x16) S16384x16.size (cc0_transform_5 i) (hinb0_5 i)).WholeWords (EltTy.packing .f32)

variable [Facts₀]

def dot_S16384x128_S64x128_S16384x64_1_1_0_0_n_n : DotDims S16384x128 S64x128 S16384x64 where
  lhsContracting := [1]
  rhsContracting := [1]
  lhsNonContracting := [0]
  rhsNonContracting := [0]
  lhsBatch := []
  rhsBatch := []
  wf := dot_S16384x128_S64x128_S16384x64_1_1_0_0_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S16384x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x128 : Shape := ⟨2, ![262144, 128]⟩
abbrev S64x128 : Shape := ⟨2, ![64, 128]⟩
abbrev S64 : Shape := ⟨1, ![64]⟩
abbrev S64x16 : Shape := ⟨2, ![64, 16]⟩
abbrev S_ : Shape := ⟨0, ![]⟩
abbrev S262144 : Shape := ⟨1, ![262144]⟩
abbrev S262144x1 : Shape := ⟨2, ![262144, 1]⟩
abbrev S128x64 : Shape := ⟨2, ![128, 64]⟩
abbrev S262144x64 : Shape := ⟨2, ![262144, 64]⟩
abbrev S1x64 : Shape := ⟨2, ![1, 64]⟩
abbrev S262144x16 : Shape := ⟨2, ![262144, 16]⟩

abbrev nBuf : Space → Nat
  | .hbm => 32
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S64x128, .f32⟩
  | .hbm, ⟨2, _⟩ => ⟨S64, .f32⟩
  | .hbm, ⟨3, _⟩ => ⟨S64x16, .f32⟩
  | .hbm, ⟨4, _⟩ => ⟨S262144x128, .f32⟩
  | .hbm, ⟨5, _⟩ => ⟨S_, .f32⟩
  | .hbm, ⟨6, _⟩ => ⟨S262144, .f32⟩
  | .hbm, ⟨7, _⟩ => ⟨S262144x1, .f32⟩
  | .hbm, ⟨8, _⟩ => ⟨S64x128, .f32⟩
  | .hbm, ⟨9, _⟩ => ⟨S_, .f32⟩
  | .hbm, ⟨10, _⟩ => ⟨S64, .f32⟩
  | .hbm, ⟨11, _⟩ => ⟨S128x64, .f32⟩
  | .hbm, ⟨12, _⟩ => ⟨S262144x64, .f32⟩
  | .hbm, ⟨13, _⟩ => ⟨S_, .f32⟩
  | .hbm, ⟨14, _⟩ => ⟨S262144x64, .f32⟩
  | .hbm, ⟨15, _⟩ => ⟨S262144x64, .f32⟩
  | .hbm, ⟨16, _⟩ => ⟨S262144x64, .f32⟩
  | .hbm, ⟨17, _⟩ => ⟨S262144x64, .f32⟩
  | .hbm, ⟨18, _⟩ => ⟨S1x64, .f32⟩
  | .hbm, ⟨19, _⟩ => ⟨S262144x64, .f32⟩
  | .hbm, ⟨20, _⟩ => ⟨S262144x64, .f32⟩
  | .hbm, ⟨21, _⟩ => ⟨S262144x64, .f32⟩
  | .hbm, ⟨22, _⟩ => ⟨S1x64, .f32⟩
  | .hbm, ⟨23, _⟩ => ⟨S262144x64, .f32⟩
  | .hbm, ⟨24, _⟩ => ⟨S262144x64, .f32⟩
  | .hbm, ⟨25, _⟩ => ⟨S262144x64, .f32⟩
  | .hbm, ⟨26, _⟩ => ⟨S64x16, .f32⟩
  | .hbm, ⟨27, _⟩ => ⟨S262144x16, .f32⟩
  | .hbm, ⟨28, _⟩ => ⟨S_, .f32⟩
  | .hbm, ⟨29, _⟩ => ⟨S262144x16, .f32⟩
  | .hbm, ⟨30, _⟩ => ⟨S262144x16, .f32⟩
  | .hbm, ⟨31, _⟩ => ⟨S262144x16, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S262144_S262144x1_0 : S262144.BroadcastsInDim S262144x1 (![0] : Fin 1 → Fin S262144x1.rank)
  reducesTo_S64x128_S64_d1 : S64x128.ReducesTo [1] S64
  transposes_S64x128_S128x64_1_0 : S64x128.Transposes [1, 0] S128x64
  bcast_S_S262144x64 : S_.BroadcastsInDim S262144x64 (![] : Fin 0 → Fin S262144x64.rank)
  bcast_S262144x1_S262144x64_0_1 : S262144x1.BroadcastsInDim S262144x64 (![0, 1] : Fin 2 → Fin S262144x64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x16 : S_.BroadcastsInDim S262144x16 (![] : Fin 0 → Fin S262144x16.rank)
  dot_S262144x128_S128x64_S262144x64_1_0_0_1_n_n_wf : DotDims.WF S262144x128 S128x64 S262144x64 [1] [0] [0] [1] [] []
  dot_S262144x64_S64x16_S262144x16_1_0_0_1_n_n_wf : DotDims.WF S262144x64 S64x16 S262144x16 [1] [0] [0] [1] [] []

variable [Facts₀]

def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x16_S262144x16_1_0_0_1_n_n : DotDims S262144x64 S64x16 S262144x16 where
  lhsContracting := [1]
  rhsContracting := [0]
  lhsNonContracting := [0]
  rhsNonContracting := [1]
  lhsBatch := []
  rhsBatch := []
  wf := dot_S262144x64_S64x16_S262144x16_1_0_0_1_n_n_wf

class Facts : Prop extends Facts₀ where

variable [Facts]
-- ==== Proof.Spec.lean ====
/-
  The function both programs compute, one entry at a time, on the extended reals.

  For a row `z` of 128 numbers, 64 centres `c_k` (rows of 128 numbers) with squared norms `|c_k|²`, 64 rates `λ_k`
  and 64 squared weights `w_k²` of one output column, the entry is

      rsqrt ( Σ_k exp( -((|z|² - 2·(z·c_k)) + |c_k|²) · λ_k ) · w_k²  +  ε ),

  the squared distance |z - c_k|² spelt as |z|² - 2 z·c_k + |c_k|², associated to the left as written. The two float
  constants, 2 and ε = f32(1e-6), are kept as the values their bit patterns denote: both programs carry the same two
  patterns, so they are never evaluated.

  `cell` is that entry as a function of the row and of the four small tables; `table` is the whole [262144, 16] array:
  entry (p, o) is `cell` of row `p` of `z`, the centres, their squared norms (sums of squares along each centre),
  the rates, and column `o` of the squared weights.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The factor 2 of the cross term, as the value of its float pattern. -/
abbrev two : EReal := Ideal.ofBits .f32 0x40000000#32

/-- The ε added under the inverse square root, as the value of its float pattern. -/
abbrev eps : EReal := Ideal.ofBits .f32 0x358637BD#32

/-- One entry of the result: from a row `zr`, the centres `cn`, their squared norms `c2`, the rates `lam` and one
    column `w2` of squared weights. -/
def cell (zr : Fin 128 → EReal) (cn : Fin 64 → Fin 128 → EReal) (c2 lam w2 : Fin 64 → EReal) : EReal :=
  Ideal.rsqrt ((∑ k : Fin 64,
      Ideal.exp (-(((∑ d : Fin 128, zr d * zr d) - two * ∑ d : Fin 128, zr d * cn k d) + c2 k) * lam k) * w2 k) + eps)

/-- The whole result array as one function of the four argument arrays, index by index. -/
def table (z : (⟨2, ![262144, 128]⟩ : Shape).Idx → EReal) (cnts : (⟨2, ![64, 128]⟩ : Shape).Idx → EReal)
    (lams : (⟨1, ![64]⟩ : Shape).Idx → EReal) (W : (⟨2, ![64, 16]⟩ : Shape).Idx → EReal) :
    (⟨2, ![262144, 16]⟩ : Shape).Idx → EReal := fun i =>
  cell (fun d => z (ix2 (i 0 : Fin 262144) d)) (fun k d => cnts (ix2 k d))
    (fun k => ∑ d : Fin 128, cnts (ix2 k d) * cnts (ix2 k d)) (fun k => lams (ix1 k))
    (fun k => W (ix2 k (i 1 : Fin 16)) * W (ix2 k (i 1 : Fin 16)))

/-- The array at the entry with explicit coordinates. -/
theorem table_apply (z : (⟨2, ![262144, 128]⟩ : Shape).Idx → EReal) (cnts : (⟨2, ![64, 128]⟩ : Shape).Idx → EReal)
    (lams : (⟨1, ![64]⟩ : Shape).Idx → EReal) (W : (⟨2, ![64, 16]⟩ : Shape).Idx → EReal) (p : Fin 262144) (o : Fin 16) :
    table z cnts lams W (ix2 p o)
      = cell (fun d => z (ix2 p d)) (fun k d => cnts (ix2 k d))
          (fun k => ∑ d : Fin 128, cnts (ix2 k d) * cnts (ix2 k d)) (fun k => lams (ix1 k))
          (fun k => W (ix2 k o) * W (ix2 k o)) := rfl

end Cert.Rbf

end
-- ==== Proof.LibMatmulNT.lean ====
/-
  A matrix product with the right operand contracted on its LAST axis, read at an index, on the extended reals.

  The product of an `[m, k]` matrix with an `[n, k]` matrix (the right operand transposed: `A · Bᵀ`), added into a
  zero accumulator, read at `(p, c)`, is the sum over `x` of the left matrix at `(p, x)` times the right matrix at
  `(c, x)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibMatmulNT

open Idealize.ShloMosaic Idealize.ShloMosaic.ValueIdx

/-- `A · Bᵀ` into a zero accumulator, read at `(p, c)`: the sum over the contracted coordinate `x` of the left
    operand at `(p, x)` times the right operand at `(c, x)`. -/
theorem matmul_nt_zero_apply {m k n : ℕ} {φ₁ φ₂ : FTy}
    (d : DotDims ⟨2, ![m, k]⟩ ⟨2, ![n, k]⟩ ⟨2, ![m, n]⟩) (prec : Option ContractPrecision)
    (lhs : FVec Ideal ⟨2, ![m, k]⟩ φ₁) (rhs : FVec Ideal ⟨2, ![n, k]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (j 1).val)
    (hr1 : ∀ (j : (⟨2, ![m, n]⟩ : Shape).Idx) (q : d.contr.Idx), (d.rhsIdx j q 1).val = (q ⟨0, by omega⟩).val)
    (p : Fin m) (c : Fin n) :
    FloatOps.matmul d prec lhs rhs (constant ⟨2, ![m, n]⟩ .f32 0x00000000#32) (ix2 p c)
      = ∑ x : Fin k, lhs (ix2 p x) * rhs (ix2 c x) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 c x := funext fun a => Fin.ext (by
    match a with
    | ⟨0, _⟩ => exact hr0 _ _
    | ⟨1, _⟩ => exact (hr1 _ _).trans hk)
  rw [el, er]

end Cert.LibMatmulNT

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.Payload.lean ====
/-
  The kernel body's stored value, read at one entry.

  At a grid point the body holds a block of 16384 rows of `z`, the 64 centres, the one-row tables of the centres'
  squared norms and of the rates, and the squared weights. What it stores at row `r`, column `o` of its output
  block is `Cert.Rbf.cell` of row `r` of the block and of those tables:

  * the lane sum of `z·z`, cast to a column and spread over the 64 columns, reads at (r, k) as Σ_d z(r,d)²;
  * the product of the block with the centres, contracted over the LAST axis of both and added into zeros, reads at
    (r, k) as Σ_d z(r,d)·c(k,d);
  * a one-row table spread over the rows reads at (r, k) as the table's entry k;
  * `0 - t` is `-t`;
  * the product of the exponentials with the squared weights, added into zeros, reads at (r, o) as Σ_k e(r,k)·w2(k,o).

  Everything else is entry by entry.
-/
import proofs.«128996_j4492535791757_2_alg».proof.Proof.Gen.KernelIdeal.Skeleton
import proofs.«128996_j4492535791757_2_alg».proof.Proof.Spec
import proofs.«128996_j4492535791757_2_alg».proof.Proof.LibMatmulNT
import proofs.«128996_j4492535791757_2_alg».proof.Proof.LibRowOps
import proofs.«128996_j4492535791757_2_alg».proof.Proof.LibColumn
import proofs.«128996_j4492535791757_2_alg».proof.Proof.LibUnitColumn
import Idealize.ShloMosaic.Lib.KernelVsHost
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The dimension numbers of the block-times-centres product (both operands contracted over their last axis). -/
abbrev DC : DotDims S16384x128 S64x128 S16384x64 := dot_S16384x128_S64x128_S16384x64_1_1_0_0_n_n
/-- The dimension numbers of the exponentials-times-weights product (an ordinary matrix product). -/
abbrev DW : DotDims S16384x64 S64x16 S16384x16 := dot_S16384x64_S64x16_S16384x16_1_0_0_1_n_n

/-! ## Which operand coordinate is the row, the column and the contracted one -/

theorem dc_l0 (j : S16384x64.Idx) (q : DC.contr.Idx) : (DC.lhsIdx j q 0).val = (j 0).val := by
  unfold DotDims.lhsIdx
  rw [dif_neg (show ¬(0 : Fin S16384x128.rank) ∈ DC.lhsBatch by decide), dif_pos (show (0 : Fin S16384x128.rank) ∈ DC.lhsNonContracting by decide)]
  rfl
theorem dc_l1 (j : S16384x64.Idx) (q : DC.contr.Idx) : (DC.lhsIdx j q 1).val = (q ⟨0, by decide⟩).val :=
  DC.lhsIdx_val_of_single rfl j q
theorem dc_r0 (j : S16384x64.Idx) (q : DC.contr.Idx) : (DC.rhsIdx j q 0).val = (j 1).val := by
  unfold DotDims.rhsIdx
  rw [dif_neg (show ¬(0 : Fin S64x128.rank) ∈ DC.rhsBatch by decide), dif_pos (show (0 : Fin S64x128.rank) ∈ DC.rhsNonContracting by decide)]
  rfl
theorem dc_r1 (j : S16384x64.Idx) (q : DC.contr.Idx) : (DC.rhsIdx j q 1).val = (q ⟨0, by decide⟩).val :=
  DC.rhsIdx_val_of_single rfl j q

theorem dw_l0 (j : S16384x16.Idx) (q : DW.contr.Idx) : (DW.lhsIdx j q 0).val = (j 0).val := by
  unfold DotDims.lhsIdx
  rw [dif_neg (show ¬(0 : Fin S16384x64.rank) ∈ DW.lhsBatch by decide), dif_pos (show (0 : Fin S16384x64.rank) ∈ DW.lhsNonContracting by decide)]
  rfl
theorem dw_l1 (j : S16384x16.Idx) (q : DW.contr.Idx) : (DW.lhsIdx j q 1).val = (q ⟨0, by decide⟩).val :=
  DW.lhsIdx_val_of_single rfl j q
theorem dw_r0 (j : S16384x16.Idx) (q : DW.contr.Idx) : (DW.rhsIdx j q 0).val = (q ⟨0, by decide⟩).val :=
  DW.rhsIdx_val_of_single rfl j q
theorem dw_r1 (j : S16384x16.Idx) (q : DW.contr.Idx) : (DW.rhsIdx j q 1).val = (j 1).val := by
  unfold DotDims.rhsIdx
  rw [dif_neg (show ¬(1 : Fin S64x16.rank) ∈ DW.rhsBatch by decide), dif_pos (show (1 : Fin S64x16.rank) ∈ DW.rhsNonContracting by decide)]
  rfl

/-! ## The pieces that are not entry by entry -/

/-- The squared norm of row `r` of the block, spread over the columns. -/
theorem rowNorm_apply (x0 : FVec Ideal S16384x128 .f32) (r : Fin 16384) (k : Fin 64) :
    broadcastTo S16384x64 (shapeCast S16384x1 (multiReduction .add [1] S16384 (mulf x0 x0) 0x00000000#32
        reduces_S16384x128_S16384 (.inl rfl) rfl) shapeCasts_S16384_S16384x1) broadcasts_S16384x1_S16384x64 (ix2 r k)
      = ∑ d : Fin 128, x0 (ix2 r d) * x0 (ix2 r d) :=
  (Cert.LibColumn.broadcastTo_a1_ab_apply _ broadcasts_S16384x1_S16384x64 r k).trans
    ((Cert.LibUnitColumn.shapeCast_a_a1_apply _ shapeCasts_S16384_S16384x1 r (0 : Fin 1)).trans
      (Cert.LibRowOps.rowSum_apply (mulf x0 x0) reduces_S16384x128_S16384 (.inl rfl) rfl r))

/-- Row `r` of the block against centre `k`. -/
theorem cross_apply (x0 : FVec Ideal S16384x128 .f32) (x1 : FVec Ideal S64x128 .f32) (r : Fin 16384) (k : Fin 64) :
    matmul DC none x0 x1 (constant S16384x64 .f32 0x00000000#32) (ix2 r k) = ∑ d : Fin 128, x0 (ix2 r d) * x1 (ix2 k d) :=
  Cert.LibMatmulNT.matmul_nt_zero_apply DC none x0 x1 rfl rfl dc_l0 dc_l1 dc_r0 dc_r1 r k

/-- A one-row table spread over the rows reads its entry `k` in every row. -/
theorem rowTable_apply (x : FVec Ideal S1x64 .f32) (r : Fin 16384) (k : Fin 64) :
    broadcastTo S16384x64 (shapeCast S1x64 x shapeCasts_S1x64_S1x64) broadcasts_S1x64_S16384x64 (ix2 r k)
      = x (ix2 (0 : Fin 1) k) :=
  (broadcastTo_1b_ab_apply _ broadcasts_S1x64_S16384x64 r k).trans (congrFun (shapeCast_self x shapeCasts_S1x64_S1x64) _)

/-! ## The stored value at an entry -/

/-- An exponential of an array, at an entry. -/
theorem exp_at {s : Shape} (a : FVec Ideal s .f32) (i : s.Idx) : exp a i = Ideal.exp (a i) := rfl
/-- An inverse square root of an array, at an entry. -/
theorem rsqrt_at {s : Shape} (a : FVec Ideal s .f32) (i : s.Idx) : rsqrt a i = Ideal.rsqrt (a i) := rfl
/-- A scalar constant is the value of its pattern, whatever the pattern. -/
theorem scalar_ofBits (b : BitVec 32) : Scalar.ofBits (F := Ideal) .f32 b = Ideal.ofBits .f32 b := rfl

/-- What the body stores at row `r`, column `o` of its output block. -/
theorem stored_apply (x0 : Vec Ideal S16384x128 .f32) (x1 : Vec Ideal S64x128 .f32) (x2 x4 : Vec Ideal S1x64 .f32)
    (x6 : Vec Ideal S64x16 .f32) (r : Fin 16384) (o : Fin 16) :
    k0_pay1 (F := Ideal) x0 x1 x2 x4 x6 (ix2 r o)
      = Cert.Rbf.cell (fun d => x0 (ix2 r d)) (fun k d => x1 (ix2 k d)) (fun k => x2 (ix2 (0 : Fin 1) k))
          (fun k => x4 (ix2 (0 : Fin 1) k)) (fun k => x6 (ix2 k o)) := by
  unfold k0_pay1 Cert.Rbf.cell
  simp only [rsqrt_at, addf_apply, broadcast_apply, scalar_ofBits]
  refine congrArg (fun s => Ideal.rsqrt (s + Ideal.ofBits .f32 0x358637BD#32)) ?_
  refine (Cert.LibRowOps.matmul_zero_apply DW none _ _ rfl rfl dw_l0 dw_l1 dw_r0 dw_r1 r o).trans
    (Finset.sum_congr rfl fun k _ => ?_)
  simp only [exp_at, mulf_apply, subf_apply, addf_apply, broadcast_apply, scalar_ofBits]
  refine congrArg₂ (· * ·) (congrArg Ideal.exp (congrArg₂ (· * ·) ?_ (rowTable_apply x4 r k)))
    (congrFun (shapeCast_self x6 shapeCasts_S64x16_S64x16) _)
  rw [Ideal.ofBits_zero_f32, zero_sub]
  exact congrArg Neg.neg (congrArg₂ (· + ·)
    (congrArg₂ (· - ·) (rowNorm_apply x0 r k) (congrArg₂ (· * ·) rfl (cross_apply x0 x1 r k))) (rowTable_apply x2 r k))

end Cert.KernelIdeal.Payload

end
-- ==== Proof.LibHostRowSum.lean ====
/-
  A host sum along the second axis of a matrix, read at an entry, on the extended reals.

  The host's sum of an `[a, b]` array along its second axis starts from an initial value: read at entry `p` it is
  that initial value plus the sum over `k` of the array's entries `(p, k)`. When the initial value is the zero
  constant, it is the sum of row `p`.
-/
import Idealize.ShloMosaic.Lib.Pipeline.Value
import Idealize.ShloMosaic.Lib.ValueIdx
import Idealize.ShloMosaic.PureOps.Ideal.Laws

noncomputable section

namespace Cert.LibHostRowSum

open Idealize.ShloMosaic Idealize.ShloMosaic.ValueIdx

/-- A host sum along the second axis of an `[a, b]` array, read at entry `p`: the initial value plus the sum of
    row `p`. -/
theorem hostRowSum_apply {a b : ℕ} {u : Shape} (src : FVec Ideal ⟨2, ![a, b]⟩ .f32) (init : u.Idx → Ideal .f32)
    (h' : (⟨2, ![a, b]⟩ : Shape).ReducesTo [(1 : Fin 2)] ⟨1, ![a]⟩) (hu : 0 < u.numel)
    (h : (⟨2, ![a, b]⟩ : Shape).Reduces [(1 : Fin 2)] ⟨1, ![a]⟩) (p : Fin a) :
    Host.reduceAdd src init h' hu (ix1 p) = init (Shape.Idx.first hu) + ∑ k : Fin b, src (ix2 p k) := by
  show Ideal.hostReduceAdd h' src (init (Shape.Idx.first hu)) (ix1 p) = _
  rw [Ideal.hostReduceAdd_single h' h]
  exact congrArg (_ + ·) (Finset.sum_congr rfl fun k _ => congrArg src (funext fun c => Fin.ext (by
    match c with
    | ⟨0, _⟩ => rfl
    | ⟨1, _⟩ => rfl)))

/-- The same from the zero constant: the sum of row `p`. -/
theorem hostRowSum_zero_apply {a b : ℕ} {u : Shape} (src : FVec Ideal ⟨2, ![a, b]⟩ .f32)
    (h' : (⟨2, ![a, b]⟩ : Shape).ReducesTo [(1 : Fin 2)] ⟨1, ![a]⟩) (hu : 0 < u.numel)
    (h : (⟨2, ![a, b]⟩ : Shape).Reduces [(1 : Fin 2)] ⟨1, ![a]⟩) (p : Fin a) :
    Host.reduceAdd src (constant (F := Ideal) u .f32 0x00000000#32) h' hu (ix1 p) = ∑ k : Fin b, src (ix2 p k) := by
  rw [hostRowSum_apply src _ h' hu h p]
  show Ideal.ofBits .f32 0x00000000#32 + _ = _
  rw [Ideal.ofBits_zero_f32, zero_add]

end Cert.LibHostRowSum

end
-- ==== Proof.LibUnitRow.lean ====
/-
  A vector laid out as a one-row matrix, read at an index.

  A `[a]` vector cast to a `[1, a]` array (a reshape that adds a leading unit axis) read at `(u, j)` is the vector's
  entry `j`: both positions are the `j`-th in row-major order, the row coordinate `u` of the unit axis being 0.
-/
import Idealize.ShloMosaic.Lib.Pipeline.Value
import Idealize.ShloMosaic.Lib.ValueIdx

noncomputable section

namespace Cert.LibUnitRow

open Idealize.ShloMosaic Idealize.ShloMosaic.ValueIdx

/-- An `[a]` vector cast to a `[1, a]` row, read at `(u, j)`: the vector's entry `j`. -/
theorem unitRow_apply {a : ℕ} {α : Type} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h (ix2 u j) (ix1 j) (by
    rw [Shape.rowMajor_val_one, Shape.rowMajor_val_two]
    show j.val = u.val * a + j.val
    have hu : u.val = 0 := by have := u.isLt; omega
    rw [hu]
    omega)

end Cert.LibUnitRow

end
-- ==== Proof.Tables.lean ====
/-
  The three small tables the host computes before the kernel is launched, as the kernel finds them.

  The array behind the third window is the centres' squared norms laid out as one row: entry (0, k) is the sum over d
  of c(k,d)². The array behind the fourth is the rates laid out as one row: entry (0, k) is λ_k. The array behind the
  fifth is the weights squared entry by entry. Each is first named as the host operations' term of the argument
  arrays (for any float instance), then read at an entry on the extended reals.
-/
import proofs.«128996_j4492535791757_2_alg».proof.Proof.Gen.KernelIdeal.Frame
import proofs.«128996_j4492535791757_2_alg».proof.Proof.LibHostRowSum
import proofs.«128996_j4492535791757_2_alg».proof.Proof.LibUnitRow
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Tables

open Cert.KernelIdeal Cert.KernelIdeal.Gen Idealize.ShloMosaic Idealize.ShloMosaic.TcCoe Idealize.SL.Sem
open Idealize.ShloMosaic.StableHlo Idealize.ShloMosaic.ValueIdx

section AnyInstance
variable {F : FTy → Type} [FloatOps F]
variable (m : (ℓ : Loc nD τ sig) → Buf (Elt F) ℓ)

/-- The centres' squared norms as the kernel finds them: the host sum of c·c along each centre, as one row. -/
theorem norms_eq (c : Dev nD) :
    (V m c main_v2 : Vec F S1x64 .f32) = shapeCast S1x64 (Host.reduceAdd
      (mulf (m ((c : Thread nD τ).loc main_arg1)) (m ((c : Thread nD τ).loc main_arg1)))
      (constant S_ .f32 0x00000000#32) reducesTo_S64x128_S64_d1 h_S_) shapeCasts_S64_S1x64 := by
  dsimp only [V, hostOps0]; after_results; rfl

/-- The rates as the kernel finds them: the argument as one row. -/
theorem rates_eq (c : Dev nD) :
    (V m c main_v3 : Vec F S1x64 .f32) = shapeCast S1x64 (m ((c : Thread nD τ).loc main_arg2)) shapeCasts_S64_S1x64 := by
  dsimp only [V, hostOps0]; after_results; rfl

/-- The squared weights as the kernel finds them. -/
theorem weights_eq (c : Dev nD) :
    (V m c main_v4 : Vec F S64x16 .f32)
      = mulf (m ((c : Thread nD τ).loc main_arg3)) (m ((c : Thread nD τ).loc main_arg3)) := by
  dsimp only [V, hostOps0]; after_results

end AnyInstance

/-! ## Read at an entry, on the extended reals -/

/-- Entry (u, k) of the one-row table of squared norms: the sum over d of c(k,d)². -/
theorem norms_apply (y : FVec Ideal S64x128 .f32) (u : Fin 1) (k : Fin 64) :
    shapeCast S1x64 (Host.reduceAdd (F := Ideal) (mulf y y) (constant (F := Ideal) S_ .f32 0x00000000#32)
        reducesTo_S64x128_S64_d1 h_S_) shapeCasts_S64_S1x64 (ix2 u k)
      = ∑ d : Fin 128, y (ix2 k d) * y (ix2 k d) :=
  (Cert.LibUnitRow.unitRow_apply _ shapeCasts_S64_S1x64 u k).trans
    (Cert.LibHostRowSum.hostRowSum_zero_apply (mulf y y) reducesTo_S64x128_S64_d1 h_S_ (by decide) k)

/-- Entry (u, k) of the one-row table of rates: λ_k. -/
theorem rates_apply (y : FVec Ideal S64 .f32) (u : Fin 1) (k : Fin 64) :
    shapeCast S1x64 y shapeCasts_S64_S1x64 (ix2 u k) = y (ix1 k) :=
  Cert.LibUnitRow.unitRow_apply y shapeCasts_S64_S1x64 u k

end Cert.KernelIdeal.Tables

end
-- ==== Proof.Whole.lean ====
/-
  From what each grid point writes back to the whole result array.

  The grid has 16 points; point t works on rows 16384·t … 16384·t + 16383. Its block of `z` is those rows of `z`,
  its other four blocks are the whole small arrays (the centres, and the three tables the host computed), and what it
  writes back is those rows of the result. So:

  * each input block, read at an entry, is the array behind it at the matching entry (`zRows_apply` for `z`, whose
    row r of block t is row 16384·t + r; the rest at the same entry);
  * the value stored at (r, o) by point t is entry (16384·t + r, o) of `Cert.Rbf.table` of the four arguments
    (`entry_eq`: the stored value is `Cert.Rbf.cell` of the blocks, and the blocks are the arguments' rows and
    tables);
  * hence point t writes back block t of that one array (`flushed_eq`); the 16 blocks cover every row (row p lies in
    block p / 16384), so the result array ends holding the array (`final`), and the kernel's run is re-posted with
    it (`run`).
-/
import proofs.«128996_j4492535791757_2_alg».proof.Proof.Gen.KernelIdeal.Value
import proofs.«128996_j4492535791757_2_alg».proof.Proof.Payload
import proofs.«128996_j4492535791757_2_alg».proof.Proof.Tables
import proofs.«128996_j4492535791757_2_alg».proof.Proof.Spec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The four argument arrays at launch, as arrays of extended reals. -/
abbrev zArg (c : Dev nD) : S262144x128.Idx → EReal := m ((c : Thread nD τ).loc main_arg0)
abbrev cArg (c : Dev nD) : S64x128.Idx → EReal := m ((c : Thread nD τ).loc main_arg1)
abbrev lArg (c : Dev nD) : S64.Idx → EReal := m ((c : Thread nD τ).loc main_arg2)
abbrev wArg (c : Dev nD) : S64x16.Idx → EReal := m ((c : Thread nD τ).loc main_arg3)

/-- The five input blocks of grid point `t`, as arrays of extended reals. -/
abbrev zBlk (c : Dev nD) (t : Fin cfg0.N) : S16384x128.Idx → EReal := iblk m c 0 t
abbrev cBlk (c : Dev nD) (t : Fin cfg0.N) : S64x128.Idx → EReal := iblk m c 1 t
abbrev nBlk (c : Dev nD) (t : Fin cfg0.N) : S1x64.Idx → EReal := iblk m c 2 t
abbrev lBlk (c : Dev nD) (t : Fin cfg0.N) : S1x64.Idx → EReal := iblk m c 3 t
abbrev wBlk (c : Dev nD) (t : Fin cfg0.N) : S64x16.Idx → EReal := iblk m c 4 t

/-- The result array as a function of the launch memory: `Cert.Rbf.table` of the four arguments. -/
abbrev result (c : Dev nD) : S262144x16.Idx → EReal :=
  Cert.Rbf.table (zArg m c) (cArg m c) (lArg m c) (wArg m c)

theorem hz : (![0, 0] : Fin 2 → Nat) = fun _ => 0 := funext fun a => by fin_cases a <;> rfl

/-- Where each window's block sits at a grid point (decided over the 16 points): the `z` block and the result block
    at block row t, every other block at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks, read at an entry -/

/-- Row r of point t's block of `z` is row 16384·t + r of `z`. -/
theorem zRows_apply (c : Dev nD) (t : Fin cfg0.N) (r : Fin 16384) (d : Fin 128) (p : Fin 262144)
    (hp : p.val = t.val * 16384 + r.val) :
    zBlk m c t (ix2 r d) = zArg m c (ix2 p d) := by
  obtain ⟨e0, e1, -⟩ := idx_facts t
  unfold zBlk zArg iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 16384 + 1 * r.val = p.val; rw [e0, hp]; omega
  | ⟨1, _⟩ => show win0_0.index t (1 : Fin 2) * 128 + 1 * d.val = d.val; rw [e1]; omega

/-- Every point's block of the centres is the centres. -/
theorem centres_apply (c : Dev nD) (t : Fin cfg0.N) (k : Fin 64) (d : Fin 128) :
    cBlk m c t (ix2 k d) = cArg m c (ix2 k d) := by
  obtain ⟨-, -, e0, e1, -⟩ := idx_facts t
  unfold cBlk cArg iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 64 + 1 * k.val = k.val; rw [e0]; omega
  | ⟨1, _⟩ => show win0_1.index t (1 : Fin 2) * 128 + 1 * d.val = d.val; rw [e1]; omega

/-- Every point's block of the squared norms reads, at (0, k), the sum over d of c(k,d)². -/
theorem norms_apply (c : Dev nD) (t : Fin cfg0.N) (k : Fin 64) :
    nBlk m c t (ix2 (0 : Fin 1) k) = ∑ d : Fin 128, cArg m c (ix2 k d) * cArg m c (ix2 k d) := by
  obtain ⟨-, -, -, -, e0, e1, -⟩ := idx_facts t
  unfold nBlk cArg iblk
  rw [View.read_apply]
  show (V m c main_v2 : Vec Ideal S1x64 .f32) _ = _
  rw [Tables.norms_eq m c]
  refine Eq.trans (congrArg _ (funext fun a => Fin.ext ?_)) (Tables.norms_apply (cArg m c) (0 : Fin 1) k)
  match a with
  | ⟨0, _⟩ => show win0_2.index t (0 : Fin 2) * 1 + 1 * 0 = 0; rw [e0]
  | ⟨1, _⟩ => show win0_2.index t (1 : Fin 2) * 64 + 1 * k.val = k.val; rw [e1]; omega

/-- Every point's block of the rates reads, at (0, k), the rate λ_k. -/
theorem rates_apply (c : Dev nD) (t : Fin cfg0.N) (k : Fin 64) :
    lBlk m c t (ix2 (0 : Fin 1) k) = lArg m c (ix1 k) := by
  obtain ⟨-, -, -, -, -, -, e0, e1, -⟩ := idx_facts t
  unfold lBlk lArg iblk
  rw [View.read_apply]
  show (V m c main_v3 : Vec Ideal S1x64 .f32) _ = _
  rw [Tables.rates_eq m c]
  refine Eq.trans (congrArg _ (funext fun a => Fin.ext ?_)) (Tables.rates_apply (lArg m c) (0 : Fin 1) k)
  match a with
  | ⟨0, _⟩ => show win0_3.index t (0 : Fin 2) * 1 + 1 * 0 = 0; rw [e0]
  | ⟨1, _⟩ => show win0_3.index t (1 : Fin 2) * 64 + 1 * k.val = k.val; rw [e1]; omega

/-- Every point's block of the squared weights reads, at (k, o), the weight W(k,o) squared. -/
theorem weights_apply (c : Dev nD) (t : Fin cfg0.N) (k : Fin 64) (o : Fin 16) :
    wBlk m c t (ix2 k o) = wArg m c (ix2 k o) * wArg m c (ix2 k o) := by
  obtain ⟨-, -, -, -, -, -, -, -, e0, e1, -⟩ := idx_facts t
  unfold wBlk wArg iblk
  rw [View.read_apply]
  show (V m c main_v4 : Vec Ideal S64x16 .f32) _ = _
  rw [Tables.weights_eq m c]
  refine congrArg (mulf (wArg m c) (wArg m c) : FVec Ideal S64x16 .f32) (funext fun a => Fin.ext ?_)
  match a with
  | ⟨0, _⟩ => show win0_4.index t (0 : Fin 2) * 64 + 1 * k.val = k.val; rw [e0]; omega
  | ⟨1, _⟩ => show win0_4.index t (1 : Fin 2) * 16 + 1 * o.val = o.val; rw [e1]; omega

/-! ## What a point stores, as an entry of the one array -/

/-- The value point t stores at (r, o) is entry (16384·t + r, o) of the result array. -/
theorem entry_eq (c : Dev nD) (t : Fin cfg0.N) (r : Fin 16384) (o : Fin 16) (p : Fin 262144)
    (hp : p.val = t.val * 16384 + r.val) :
    k0_pay1 (F := Ideal) (zBlk m c t) (cBlk m c t) (nBlk m c t) (lBlk m c t) (wBlk m c t) (ix2 r o)
      = result m c (ix2 p o) := by
  refine (Payload.stored_apply (zBlk m c t) (cBlk m c t) (nBlk m c t) (lBlk m c t) (wBlk m c t) r o).trans ?_
  refine Eq.trans ?_ (Cert.Rbf.table_apply (zArg m c) (cArg m c) (lArg m c) (wArg m c) p o).symm
  exact congr (congr (congr (congr (congrArg Cert.Rbf.cell
    (funext fun d => zRows_apply m c t r d p hp))
    (funext fun k => funext fun d => centres_apply m c t k d))
    (funext fun k => norms_apply m c t k))
    (funext fun k => rates_apply m c t k))
    (funext fun k => weights_apply m c t k o)

/-! ## Blocks to the array -/

/-- Point t writes back block t of the result array. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S16384x128) hz, View.ld_unit_zero (S := S64x128) hz,
    View.ld_unit_zero (S := S1x64) hz, View.ld_unit_zero (S := S64x16) hz]
  funext j
  have hN : cfg0.N = 16 := N_0
  have ht : t.val < 16 := lt_of_lt_of_eq t.isLt hN
  have hj0 : (j 0).val < 16384 := (j 0).isLt
  obtain ⟨-, -, -, -, -, -, -, -, -, -, e0, e1⟩ := idx_facts t
  show k0_pay1 (F := Ideal) (zBlk m c t) (cBlk m c t) (nBlk m c t) (lBlk m c t) (wBlk m c t) j
    = result m c (((cfg0.win 5).blk t).view.emb j)
  refine ((congrArg (k0_pay1 (F := Ideal) (zBlk m c t) (cBlk m c t) (nBlk m c t) (lBlk m c t) (wBlk m c t))
    (eq_ix2 j)).trans (entry_eq m c t (j 0) (j 1) ⟨t.val * 16384 + (j 0).val, by omega⟩ rfl)).trans ?_
  refine congrArg (result m c) (funext fun a => Fin.ext ?_)
  match a with
  | ⟨0, _⟩ => show t.val * 16384 + (j 0).val = win0_5.index t (0 : Fin 2) * 16384 + 1 * (j 0).val; rw [e0]; omega
  | ⟨1, _⟩ => show (j 1).val = win0_5.index t (1 : Fin 2) * 16 + 1 * (j 1).val; rw [e1]; omega

/-- An entry of the result array is in point t's block iff each coordinate is in the block's range on its axis. -/
theorem mem_blk (t : Fin cfg0.N) (i : S262144x16.Idx) :
    i ∈ ((cfg0.win 5).blk t).view.set ↔ ∀ a : Fin 2, win0_5.index t a * S16384x16.size a ≤ (i a).val
      ∧ (i a).val < win0_5.index t a * S16384x16.size a + S16384x16.size a := by
  show i ∈ ((View.whole main_v5).slice (win0_5.rect t)).set ↔ _
  rw [View.set_slice_whole, Rect.mem_set_unit]
  exact Iff.rfl

/-- The result array after the run: row p is written by point p / 16384, and every row is covered. -/
theorem final (c : Dev nD) : (dats m 0 c).arrAt 5 cfg0.N = result m c :=
  (dats m 0 c).arrAt_eq_of_cover 5 (result m c) (fun t _ => flushed_eq m c t) (fun i => by
    have hN : cfg0.N = 16 := N_0
    have hi0 : (i 0).val < 262144 := (i 0).isLt
    have hi1 : (i 1).val < 16 := (i 1).isLt
    obtain ⟨t, ht⟩ : ∃ t : Fin cfg0.N, t.val = (i 0).val / 16384 := ⟨⟨(i 0).val / 16384, by rw [hN]; omega⟩, rfl⟩
    obtain ⟨-, -, -, -, -, -, -, -, -, -, e0, e1⟩ := idx_facts t
    refine ⟨t, flush0_5 t, ?_⟩
    rw [mem_blk]
    intro a
    match a with
    | ⟨0, _⟩ =>
      show win0_5.index t (0 : Fin 2) * 16384 ≤ (i 0).val ∧ (i 0).val < win0_5.index t (0 : Fin 2) * 16384 + 16384
      rw [e0, ht]; omega
    | ⟨1, _⟩ =>
      show win0_5.index t (1 : Fin 2) * 16 ≤ (i 1).val ∧ (i 1).val < win0_5.index t (1 : Fin 2) * 16 + 16
      rw [e1]; omega)

/-- The kernel's run, read: the result array ends at `result`, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.Reference.lean ====
/-
  The reference's result, stage by stage, is the function `Cert.Rbf.table` of its arguments.

  Each stage of the reference is read at an entry with explicit coordinates (p, k) or (p, o):
  the squared norm of row p of z (a host sum from zero, spread along the 64 columns); the product of z with the
  transposed centres (Σ_d z(p,d)·c(k,d)); the centres' squared norms and the rates, each a vector laid along every
  row; the two constants; then the exponent, and the final sum over the 64 centres, ε added, under the inverse square
  root. The host's negation is the negation, its exponential and inverse square root the same functions as the
  kernel's, and a host sum from the zero constant is the plain sum (0 + s = s).
-/
import proofs.«128996_j4492535791757_2_alg».proof.Proof.Gen.ReferenceIdeal.Read
import proofs.«128996_j4492535791757_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 : (⟨S262144x128, .f32⟩ : BufTy).Contents (Elt Ideal)) (x1 : (⟨S64x128, .f32⟩ : BufTy).Contents (Elt Ideal)) (x2 : (⟨S64, .f32⟩ : BufTy).Contents (Elt Ideal)) (x3 : (⟨S64x16, .f32⟩ : BufTy).Contents (Elt Ideal))

/-- The squared norm of row p of z, at any column. -/
theorem rowNorm_apply (p : Fin 262144) (k : Fin 64) :
    val_main_v9 (F := Ideal) x0 (ix2 p k) = ∑ d : Fin 128, x0 (ix2 p d) * x0 (ix2 p d) := by
  rw [val_main_v9_apply, val_main_v2_apply, val_main_v1_apply, val_main_cst_apply]
  simp only [Ideal.ofBits_def, Ideal.ofBits_zero_f32, zero_add]
  refine Finset.sum_congr rfl fun d _ => ?_
  have e : idx_main_v1 (idx_main_v2 (idx_main_v9 (ix2 p k))) d = ix2 p d := funext fun a => Fin.ext (by match a with | ⟨0, _⟩ => rfl | ⟨1, _⟩ => rfl)
  rw [val_main_v0_apply, e]
  rfl

/-- Row p of z against centre k. -/
theorem cross_apply (p : Fin 262144) (k : Fin 64) :
    val_main_v6 (F := Ideal) x0 x1 (ix2 p k) = ∑ d : Fin 128, x0 (ix2 p d) * x1 (ix2 k d) := by
  rw [val_main_v6_apply]
  refine Finset.sum_congr rfl fun d _ => ?_
  have el : lidx_main_v6 (ix2 p k) d = ix2 p d := funext fun a => Fin.ext (by match a with | ⟨0, _⟩ => rfl | ⟨1, _⟩ => rfl)
  have er : idx_main_v5 (ridx_main_v6 (ix2 p k) d) = ix2 k d := funext fun a => Fin.ext (by match a with | ⟨0, _⟩ => rfl | ⟨1, _⟩ => rfl)
  rw [val_main_v5_apply, el, er]

/-- The squared norm of centre k, in any row. -/
theorem centreNorm_apply (p : Fin 262144) (k : Fin 64) :
    val_main_v12 (F := Ideal) x1 (ix2 p k) = ∑ d : Fin 128, x1 (ix2 k d) * x1 (ix2 k d) := by
  rw [val_main_v12_apply, val_main_v11_apply, val_main_v4_apply, val_main_cst_0_apply]
  simp only [Ideal.ofBits_def, Ideal.ofBits_zero_f32, zero_add]
  refine Finset.sum_congr rfl fun d _ => ?_
  have e : idx_main_v4 (idx_main_v11 (idx_main_v12 (ix2 p k))) d = ix2 k d := funext fun a => Fin.ext (by match a with | ⟨0, _⟩ => rfl | ⟨1, _⟩ => rfl)
  rw [val_main_v3_apply, e]
  rfl

/-- The rate of centre k, in any row. -/
theorem rate_apply (p : Fin 262144) (k : Fin 64) : val_main_v16 (F := Ideal) x2 (ix2 p k) = x2 (ix1 k) := by
  have e : idx_main_v15 (idx_main_v16 (ix2 p k)) = ix1 k :=
    funext fun a => Fin.ext (by match a with | ⟨0, _⟩ => rfl)
  rw [val_main_v16_apply, val_main_v15_apply, e]

/-- The factor 2, everywhere. -/
theorem two_apply (i : S262144x64.Idx) : val_main_v7 (F := Ideal) i = Cert.Rbf.two := by
  rw [val_main_v7_apply, val_main_cst_1_apply]
  rfl

/-- The ε, everywhere. -/
theorem eps_apply (i : S262144x16.Idx) : val_main_v21 (F := Ideal) i = Cert.Rbf.eps := by
  rw [val_main_v21_apply, val_main_cst_2_apply]
  rfl

/-- The exponential at (p, k). -/
theorem weightOf_apply (p : Fin 262144) (k : Fin 64) :
    val_main_v18 (F := Ideal) x0 x1 x2 (ix2 p k)
      = Ideal.exp (-(((∑ d : Fin 128, x0 (ix2 p d) * x0 (ix2 p d)) - Cert.Rbf.two * ∑ d : Fin 128, x0 (ix2 p d) * x1 (ix2 k d))
          + ∑ d : Fin 128, x1 (ix2 k d) * x1 (ix2 k d)) * x2 (ix1 k)) := by
  rw [val_main_v18_apply, val_main_v17_apply, val_main_v14_apply, val_main_v13_apply, val_main_v10_apply,
    val_main_v8_apply, rowNorm_apply, two_apply, cross_apply, centreNorm_apply, rate_apply]
  rfl

/-- The reference's result is `Cert.Rbf.table` of its arguments. -/
theorem result_eq : val_main_v23 (F := Ideal) x0 x1 x2 x3 = Cert.Rbf.table x0 x1 x2 x3 := by
  funext i
  obtain ⟨p, o, rfl⟩ : ∃ (p : Fin 262144) (o : Fin 16), i = ix2 p o := ⟨i 0, i 1, eq_ix2 i⟩
  rw [Cert.Rbf.table_apply, val_main_v23_apply, val_main_v22_apply, val_main_v20_apply, eps_apply]
  unfold Cert.Rbf.cell
  simp only [Ideal.hostUnary_rsqrt_def, Ideal.addf_def]
  refine congrArg (fun s => Ideal.rsqrt (s + Cert.Rbf.eps)) (Finset.sum_congr rfl fun k _ => ?_)
  have el : lidx_main_v20 (ix2 p o) k = ix2 p k := funext fun a => Fin.ext (by match a with | ⟨0, _⟩ => rfl | ⟨1, _⟩ => rfl)
  have er : ridx_main_v20 (ix2 p o) k = ix2 k o := funext fun a => Fin.ext (by match a with | ⟨0, _⟩ => rfl | ⟨1, _⟩ => rfl)
  rw [el, er, weightOf_apply, val_main_v19_apply]
  rfl

end Cert.ReferenceIdeal.RefValue

end
-- ==== Proof.lean ====
/-
  The kernel and its reference compute one function.

  For z : [262144, 128], centres c : [64, 128], rates λ : [64] and weights W : [64, 16], both programs return, at
  (p, o),

      rsqrt ( Σ_k exp( -((|z_p|² - 2·(z_p·c_k)) + |c_k|²) · λ_k ) · W(k,o)²  +  ε ).

  The reference spells it with whole-array host operations. The kernel first lets the host compute the three small
  tables (|c_k|² as one row, λ as one row, W² entry by entry), then runs over 16 blocks of 16384 rows of z, each block
  computing its rows of the result from its rows of z and the tables. On the extended reals the two spellings differ
  only in ways that change nothing: a lane sum or a matrix product into zeros against a host sum from zero or a host
  product (0 + s = s), `0 - t` against `-t`, a product contracted over the last axis of both operands against a
  product with the transposed matrix, a table laid along the rows by a cast and a spread against a spread in
  dimensions. No law that needs finite entries is used, so the precondition is never opened.

  The modules: `Spec` (the function, one entry and the whole array), `Payload` (the kernel body's stored value at an
  entry), `Tables` (the host-computed tables as the kernel finds them), `Whole` (from the 16 written-back blocks to
  the whole array, and the kernel's run re-posted), `Reference` (the reference's stages read at an entry); here the
  five claims are assembled.
-/
import proofs.«128996_j4492535791757_2_alg».proof.Defs
import proofs.«128996_j4492535791757_2_alg».proof.Proof.Gen.Kernel
import proofs.«128996_j4492535791757_2_alg».proof.Proof.Gen.Kernel.Skeleton
import proofs.«128996_j4492535791757_2_alg».proof.Proof.Gen.Kernel.Launch
import proofs.«128996_j4492535791757_2_alg».proof.Proof.Gen.Kernel.Points
import proofs.«128996_j4492535791757_2_alg».proof.Proof.Gen.Kernel.Frame
import proofs.«128996_j4492535791757_2_alg».proof.Proof.Gen.KernelIdeal
import proofs.«128996_j4492535791757_2_alg».proof.Proof.Gen.KernelIdeal.Skeleton
import proofs.«128996_j4492535791757_2_alg».proof.Proof.Gen.KernelIdeal.Launch
import proofs.«128996_j4492535791757_2_alg».proof.Proof.Gen.KernelIdeal.Points
import proofs.«128996_j4492535791757_2_alg».proof.Proof.Gen.KernelIdeal.Frame
import proofs.«128996_j4492535791757_2_alg».proof.Proof.Gen.ReferenceIdeal
import proofs.«128996_j4492535791757_2_alg».proof.Proof.Gen.KernelIdeal.Value
import proofs.«128996_j4492535791757_2_alg».proof.Proof.Gen.ReferenceIdeal.Run
import proofs.«128996_j4492535791757_2_alg».proof.Proof.Gen.ReferenceIdeal.Read
import proofs.«128996_j4492535791757_2_alg».proof.Proof.Gen.Pre_finite_inputs
import proofs.«128996_j4492535791757_2_alg».proof.Proof.Whole
import proofs.«128996_j4492535791757_2_alg».proof.Proof.Reference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on the arguments both programs end with the same result array: the kernel's is
    `Cert.Rbf.table` of the arguments block by block, the reference's is the same array stage by stage. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
